-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024x768 : Shape := ⟨3, ![8, 1024, 768]⟩
abbrev S128x12 : Shape := ⟨2, ![128, 12]⟩
abbrev S768x896 : Shape := ⟨2, ![768, 896]⟩
abbrev S768 : Shape := ⟨1, ![768]⟩
abbrev S_ : Shape := ⟨0, ![]⟩

class Facts : Prop where
  bcast_S_S8x1024x768 : S_.BroadcastsInDim S8x1024x768 (![] : Fin 0 → Fin S8x1024x768.rank)
  reducesTo_S8x1024x768_S_d0_1_2 : S8x1024x768.ReducesTo [0, 1, 2] S_
  h_S_ : 0 < S_.numel
  bcast_S_S128x12 : S_.BroadcastsInDim S128x12 (![] : Fin 0 → Fin S128x12.rank)
  reducesTo_S128x12_S_d0_1 : S128x12.ReducesTo [0, 1] S_
  bcast_S_S768x896 : S_.BroadcastsInDim S768x896 (![] : Fin 0 → Fin S768x896.rank)
  reducesTo_S768x896_S_d0_1 : S768x896.ReducesTo [0, 1] S_
  bcast_S_S768 : S_.BroadcastsInDim S768 (![] : Fin 0 → Fin S768.rank)
  reducesTo_S768_S_d0 : S768.ReducesTo [0] S_

variable [Facts]

def fn_part1 {F : FTy → Type} [FloatOps F] (main_v13 : IVec S_ 1) (main_v16 : IVec S768 1) : IVec S_ 1 :=
  let main_c_5 : IVec S_ 1 := constantI S_ 1 1#1
  let main_v17 : IVec S_ 1 := (fun x v => Host.reduce IntOp.andi x v reducesTo_S768_S_d0 h_S_) main_v16 main_c_5
  let main_v18 : IVec S_ 1 := andi main_v13 main_v17
  main_v18

def fn {F : FTy → Type} [FloatOps F] (main_arg0 : FVec F S8x1024x768 .f32) (main_arg1 : FVec F S128x12 .f32) (main_arg2 : FVec F S768x896 .f32) (main_arg3 : FVec F S768 .f32) : IVec S_ 1 :=
  let main_v0 : FVec F S8x1024x768 .f32 := Host.absf main_arg0
  let main_cst : FVec F S_ .f32 := constant S_ .f32 0x7F800000#32
  let main_v1 : FVec F S8x1024x768 .f32 := broadcastInDim S8x1024x768 ![] bcast_S_S8x1024x768 main_cst
  let main_v2 : IVec S8x1024x768 1 := cmpf .olt main_v0 main_v1
  let main_c : IVec S_ 1 := constantI S_ 1 1#1
  let main_v3 : IVec S_ 1 := (fun x v => Host.reduce IntOp.andi x v reducesTo_S8x1024x768_S_d0_1_2 h_S_) main_v2 main_c
  let main_v4 : FVec F S128x12 .f32 := Host.absf main_arg1
  let main_cst_0 : FVec F S_ .f32 := constant S_ .f32 0x7F800000#32
  let main_v5 : FVec F S128x12 .f32 := broadcastInDim S128x12 ![] bcast_S_S128x12 main_cst_0
  let main_v6 : IVec S128x12 1 := cmpf .olt main_v4 main_v5
  let main_c_1 : IVec S_ 1 := constantI S_ 1 1#1
  let main_v7 : IVec S_ 1 := (fun x v => Host.reduce IntOp.andi x v reducesTo_S128x12_S_d0_1 h_S_) main_v6 main_c_1
  let main_v8 : IVec S_ 1 := andi main_v3 main_v7
  let main_v9 : FVec F S768x896 .f32 := Host.absf main_arg2
  let main_cst_2 : FVec F S_ .f32 := constant S_ .f32 0x7F800000#32
  let main_v10 : FVec F S768x896 .f32 := broadcastInDim S768x896 ![] bcast_S_S768x896 main_cst_2
  let main_v11 : IVec S768x896 1 := cmpf .olt main_v9 main_v10
  let main_c_3 : IVec S_ 1 := constantI S_ 1 1#1
  let main_v12 : IVec S_ 1 := (fun x v => Host.reduce IntOp.andi x v reducesTo_S768x896_S_d0_1 h_S_) main_v11 main_c_3
  let main_v13 : IVec S_ 1 := andi main_v8 main_v12
  let main_v14 : FVec F S768 .f32 := Host.absf main_arg3
  let main_cst_4 : FVec F S_ .f32 := constant S_ .f32 0x7F800000#32
  let main_v15 : FVec F S768 .f32 := broadcastInDim S768 ![] bcast_S_S768 main_cst_4
  let main_v16 : IVec S768 1 := cmpf .olt main_v14 main_v15
  fn_part1 (F := F) main_v13 main_v16
-- ==== Kernel.lean ====
abbrev S8x1024x768 : Shape := ⟨3, ![8, 1024, 768]⟩
abbrev S128x12 : Shape := ⟨2, ![128, 12]⟩
abbrev S768x896 : Shape := ⟨2, ![768, 896]⟩
abbrev S768 : Shape := ⟨1, ![768]⟩
abbrev S12x128 : Shape := ⟨2, ![12, 128]⟩
abbrev S768x768 : Shape := ⟨2, ![768, 768]⟩
abbrev S768x128 : Shape := ⟨2, ![768, 128]⟩
abbrev S128x768 : Shape := ⟨2, ![128, 768]⟩
abbrev S12x768 : Shape := ⟨2, ![12, 768]⟩
abbrev S1x768 : Shape := ⟨2, ![1, 768]⟩
abbrev S8192x768 : Shape := ⟨2, ![8192, 768]⟩
abbrev S8192x12x768 : Shape := ⟨3, ![8192, 12, 768]⟩
abbrev S256x768 : Shape := ⟨2, ![256, 768]⟩
abbrev S256x12x768 : Shape := ⟨3, ![256, 12, 768]⟩
abbrev S256x1x768 : Shape := ⟨3, ![256, 1, 768]⟩
abbrev S8x1024x12x768 : Shape := ⟨4, ![8, 1024, 12, 768]⟩

abbrev nBuf : Space → Nat
  | .hbm => 17
  | .vmem => 6
  | .smem => 0
  | _ => 0

abbrev bufTy : (tb : Table) → Fin (tcTables nBuf tb) → BufTy
  | .hbm, ⟨0, _⟩ => ⟨S8x1024x768, .f32⟩
  | .hbm, ⟨1, _⟩ => ⟨S128x12, .f32⟩
  | .hbm, ⟨2, _⟩ => ⟨S768x896, .f32⟩
  | .hbm, ⟨3, _⟩ => ⟨S768, .f32⟩
  | .hbm, ⟨4, _⟩ => ⟨S12x128, .f32⟩
  | .hbm, ⟨5, _⟩ => ⟨S768x768, .f32⟩
  | .hbm, ⟨6, _⟩ => ⟨S768x128, .f32⟩
  | .hbm, ⟨7, _⟩ => ⟨S128x768, .f32⟩
  | .hbm, ⟨8, _⟩ => ⟨S12x768, .f32⟩
  | .hbm, ⟨9, _⟩ => ⟨S1x768, .f32⟩
  | .hbm, ⟨10, _⟩ => ⟨S12x768, .f32⟩
  | .hbm, ⟨11, _⟩ => ⟨S12x768, .f32⟩
  | .hbm, ⟨12, _⟩ => ⟨S768x768, .f32⟩
  | .hbm, ⟨13, _⟩ => ⟨S768x768, .bf16⟩
  | .hbm, ⟨14, _⟩ => ⟨S8192x768, .f32⟩
  | .hbm, ⟨15, _⟩ => ⟨S8192x12x768, .f32⟩
  | .hbm, ⟨16, _⟩ => ⟨S8x1024x12x768, .f32⟩
  | .local _ .vmem, ⟨0, _⟩ => ⟨S256x768, .f32⟩
  | .local _ .vmem, ⟨1, _⟩ => ⟨S256x768, .f32⟩
  | .local _ .vmem, ⟨2, _⟩ => ⟨S768x768, .bf16⟩
  | .local _ .vmem, ⟨3, _⟩ => ⟨S12x768, .f32⟩
  | .local _ .vmem, ⟨4, _⟩ => ⟨S256x12x768, .f32⟩
  | .local _ .vmem, ⟨5, _⟩ => ⟨S256x12x768, .f32⟩
  | _, _ => ⟨S8x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S12x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x12x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S128x12_S12x128 : S128x12.ShapeCasts S12x128
  slices_S768x896_S768x768_0_0 : S768x896.Slices ![0, 0] S768x768
  slices_S768x896_S768x128_0_768 : S768x896.Slices ![0, 768] S768x128
  transposes_S768x128_S128x768_1_0 : S768x128.Transposes [1, 0] S128x768
  bcast_S768_S1x768_1 : S768.BroadcastsInDim S1x768 (![1] : Fin 1 → Fin S1x768.rank)
  bcast_S1x768_S12x768_0_1 : S1x768.BroadcastsInDim S12x768 (![0, 1] : Fin 2 → Fin S12x768.rank)
  transposes_S768x768_S768x768_1_0 : S768x768.Transposes [1, 0] S768x768
  bitsLt_bf16_f32 : FTy.bits .bf16 < FTy.bits .f32
  shapeCasts_S8x1024x768_S8192x768 : S8x1024x768.ShapeCasts S8192x768
  inb_S256x768_S256x768_0_0 : ∀ a, (![0, 0] : Fin 2 → Nat) a + S256x768.size a ≤ S256x768.size a
  h_S256x768 : 0 < S256x768.numel
  shapeCasts_S256x768_S256x768 : S256x768.ShapeCasts S256x768
  inb_S768x768_S768x768_0_0 : ∀ a, (![0, 0] : Fin 2 → Nat) a + S768x768.size a ≤ S768x768.size a
  h_S768x768 : 0 < S768x768.numel
  shapeCasts_S768x768_S768x768 : S768x768.ShapeCasts S768x768
  inb_S12x768_S1x768_0_0 : ∀ a, (![0, 0] : Fin 2 → Nat) a + S1x768.size a ≤ S12x768.size a
  h_S1x768 : 0 < S1x768.numel
  shapeCasts_S1x768_S768 : S1x768.ShapeCasts S768
  shapeCasts_S768_S1x768 : S768.ShapeCasts S1x768
  broadcasts_S1x768_S256x768 : S1x768.Broadcasts S256x768
  inb_S256x12x768_S256x1x768_0_0_0 : ∀ a, (![0, 0, 0] : Fin 3 → Nat) a + S256x1x768.size a ≤ S256x12x768.size a
  h_S256x1x768 : 0 < S256x1x768.numel
  shapeCasts_S256x1x768_S256x768 : S256x1x768.ShapeCasts S256x768
  shapeCasts_S256x768_S256x1x768 : S256x768.ShapeCasts S256x1x768
  inb_S12x768_S1x768_1_0 : ∀ a, (![1, 0] : Fin 2 → Nat) a + S1x768.size a ≤ S12x768.size a
  inb_S256x12x768_S256x1x768_0_1_0 : ∀ a, (![0, 1, 0] : Fin 3 → Nat) a + S256x1x768.size a ≤ S256x12x768.size a
  inb_S12x768_S1x768_2_0 : ∀ a, (![2, 0] : Fin 2 → Nat) a + S1x768.size a ≤ S12x768.size a
  inb_S256x12x768_S256x1x768_0_2_0 : ∀ a, (![0, 2, 0] : Fin 3 → Nat) a + S256x1x768.size a ≤ S256x12x768.size a
  inb_S12x768_S1x768_3_0 : ∀ a, (![3, 0] : Fin 2 → Nat) a + S1x768.size a ≤ S12x768.size a
  inb_S256x12x768_S256x1x768_0_3_0 : ∀ a, (![0, 3, 0] : Fin 3 → Nat) a + S256x1x768.size a ≤ S256x12x768.size a
  inb_S12x768_S1x768_4_0 : ∀ a, (![4, 0] : Fin 2 → Nat) a + S1x768.size a ≤ S12x768.size a
  inb_S256x12x768_S256x1x768_0_4_0 : ∀ a, (![0, 4, 0] : Fin 3 → Nat) a + S256x1x768.size a ≤ S256x12x768.size a
  inb_S12x768_S1x768_5_0 : ∀ a, (![5, 0] : Fin 2 → Nat) a + S1x768.size a ≤ S12x768.size a
  inb_S256x12x768_S256x1x768_0_5_0 : ∀ a, (![0, 5, 0] : Fin 3 → Nat) a + S256x1x768.size a ≤ S256x12x768.size a
  inb_S12x768_S1x768_6_0 : ∀ a, (![6, 0] : Fin 2 → Nat) a + S1x768.size a ≤ S12x768.size a
  inb_S256x12x768_S256x1x768_0_6_0 : ∀ a, (![0, 6, 0] : Fin 3 → Nat) a + S256x1x768.size a ≤ S256x12x768.size a
  inb_S12x768_S1x768_7_0 : ∀ a, (![7, 0] : Fin 2 → Nat) a + S1x768.size a ≤ S12x768.size a
  inb_S256x12x768_S256x1x768_0_7_0 : ∀ a, (![0, 7, 0] : Fin 3 → Nat) a + S256x1x768.size a ≤ S256x12x768.size a
  inb_S12x768_S1x768_8_0 : ∀ a, (![8, 0] : Fin 2 → Nat) a + S1x768.size a ≤ S12x768.size a
  inb_S256x12x768_S256x1x768_0_8_0 : ∀ a, (![0, 8, 0] : Fin 3 → Nat) a + S256x1x768.size a ≤ S256x12x768.size a
  inb_S12x768_S1x768_9_0 : ∀ a, (![9, 0] : Fin 2 → Nat) a + S1x768.size a ≤ S12x768.size a
  inb_S256x12x768_S256x1x768_0_9_0 : ∀ a, (![0, 9, 0] : Fin 3 → Nat) a + S256x1x768.size a ≤ S256x12x768.size a
  inb_S12x768_S1x768_10_0 : ∀ a, (![10, 0] : Fin 2 → Nat) a + S1x768.size a ≤ S12x768.size a
  inb_S256x12x768_S256x1x768_0_10_0 : ∀ a, (![0, 10, 0] : Fin 3 → Nat) a + S256x1x768.size a ≤ S256x12x768.size a
  inb_S12x768_S1x768_11_0 : ∀ a, (![11, 0] : Fin 2 → Nat) a + S1x768.size a ≤ S12x768.size a
  inb_S256x12x768_S256x1x768_0_11_0 : ∀ a, (![0, 11, 0] : Fin 3 → Nat) a + S256x1x768.size a ≤ S256x12x768.size a
  shapeCasts_S8192x12x768_S8x1024x12x768 : S8192x12x768.ShapeCasts S8x1024x12x768
  dot_S12x128_S128x768_S12x768_1_0_0_1_n_n_wf : DotDims.WF S12x128 S128x768 S12x768 [1] [0] [0] [1] [] []
  dot_S256x768_S768x768_S256x768_1_0_0_1_n_n_wf : DotDims.WF S256x768 S768x768 S256x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x768.size a ≤ S8192x768.size a
  hwx0_0 : ∀ i : grid0.Coords, EltTy.bits .f32 = 32 ∨ (Rect.block (s := S8192x768) S256x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x768.size a ≤ S768x768.size a
  hwx0_1 : ∀ i : grid0.Coords, EltTy.bits .bf16 = 32 ∨ (Rect.block (s := S768x768) S768x768.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S12x768.size a ≤ S12x768.size a
  hwx0_2 : ∀ i : grid0.Coords, EltTy.bits .f32 = 32 ∨ (Rect.block (s := S12x768) S12x768.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x12x768.size a ≤ S8192x12x768.size a
  hwx0_3 : ∀ i : grid0.Coords, EltTy.bits .f32 = 32 ∨ (Rect.block (s := S8192x12x768) S256x12x768.size (cc0_transform_3 i) (hinb0_3 i)).WholeWords (EltTy.packing .f32)

variable [Facts₀]

def dot_S12x128_S128x768_S12x768_1_0_0_1_n_n : DotDims S12x128 S128x768 S12x768 where
  lhsContracting := [1]
  rhsContracting := [0]
  lhsNonContracting := [0]
  rhsNonContracting := [1]
  lhsBatch := []
  rhsBatch := []
  wf := dot_S12x128_S128x768_S12x768_1_0_0_1_n_n_wf
def dot_S256x768_S768x768_S256x768_1_0_0_1_n_n : DotDims S256x768 S768x768 S256x768 where
  lhsContracting := [1]
  rhsContracting := [0]
  lhsNonContracting := [0]
  rhsNonContracting := [1]
  lhsBatch := []
  rhsBatch := []
  wf := dot_S256x768_S768x768_S256x768_1_0_0_1_n_n_wf

abbrev win0_0 : Pipeline.Window sig grid0 :=
  Pipeline.Window.ofSpec (Memref.whole main_v10) S256x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S768x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S12x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S256x12x768.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x1024x768 : Shape := ⟨3, ![8, 1024, 768]⟩
abbrev S128x12 : Shape := ⟨2, ![128, 12]⟩
abbrev S768x896 : Shape := ⟨2, ![768, 896]⟩
abbrev S768 : Shape := ⟨1, ![768]⟩
abbrev S12x128 : Shape := ⟨2, ![12, 128]⟩
abbrev S768x768 : Shape := ⟨2, ![768, 768]⟩
abbrev S768x128 : Shape := ⟨2, ![768, 128]⟩
abbrev S12x768 : Shape := ⟨2, ![12, 768]⟩
abbrev S8x1024x1x768 : Shape := ⟨4, ![8, 1024, 1, 768]⟩
abbrev S1x1x12x768 : Shape := ⟨4, ![1, 1, 12, 768]⟩
abbrev S8x1024x12x768 : Shape := ⟨4, ![8, 1024, 12, 768]⟩
abbrev S1x1x1x768 : Shape := ⟨4, ![1, 1, 1, 768]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S8x1024x768, .f32⟩
  | .hbm, ⟨1, _⟩ => ⟨S128x12, .f32⟩
  | .hbm, ⟨2, _⟩ => ⟨S768x896, .f32⟩
  | .hbm, ⟨3, _⟩ => ⟨S768, .f32⟩
  | .hbm, ⟨4, _⟩ => ⟨S12x128, .f32⟩
  | .hbm, ⟨5, _⟩ => ⟨S768x768, .f32⟩
  | .hbm, ⟨6, _⟩ => ⟨S768x128, .f32⟩
  | .hbm, ⟨7, _⟩ => ⟨S8x1024x768, .f32⟩
  | .hbm, ⟨8, _⟩ => ⟨S12x768, .f32⟩
  | .hbm, ⟨9, _⟩ => ⟨S8x1024x1x768, .f32⟩
  | .hbm, ⟨10, _⟩ => ⟨S1x1x12x768, .f32⟩
  | .hbm, ⟨11, _⟩ => ⟨S8x1024x12x768, .f32⟩
  | .hbm, ⟨12, _⟩ => ⟨S8x1024x12x768, .f32⟩
  | .hbm, ⟨13, _⟩ => ⟨S8x1024x12x768, .f32⟩
  | .hbm, ⟨14, _⟩ => ⟨S1x1x1x768, .f32⟩
  | .hbm, ⟨15, _⟩ => ⟨S8x1024x12x768, .f32⟩
  | .hbm, ⟨16, _⟩ => ⟨S8x1024x12x768, .f32⟩
  | .hbm, ⟨17, _⟩ => ⟨S_, .f32⟩
  | .hbm, ⟨18, _⟩ => ⟨S8x1024x12x768, .f32⟩
  | .hbm, ⟨19, _⟩ => ⟨S8x1024x12x768, .f32⟩
  | _, _ => ⟨S8x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_call0_cst : Ref sig .tc := ⟨.hbm, 17, rfl⟩
abbrev main_call0_v0 : Ref sig .tc := ⟨.hbm, 18, rfl⟩
abbrev main_v13 : Ref sig .tc := ⟨.hbm, 19, rfl⟩

abbrev nD : Nat := 1
abbrev τ : Topo := Topo.v7x

variable {F : FTy → Type} [FloatOps F]

class Facts₀ : Prop where
  shapeCasts_S128x12_S12x128 : S128x12.ShapeCasts S12x128
  slices_S768x896_S768x768_0_0 : S768x896.Slices ![0, 0] S768x768
  slices_S768x896_S768x128_0_768 : S768x896.Slices ![0, 768] S768x128
  bcast_S8x1024x768_S8x1024x1x768_0_1_3 : S8x1024x768.BroadcastsInDim S8x1024x1x768 (![0, 1, 3] : Fin 3 → Fin S8x1024x1x768.rank)
  bcast_S12x768_S1x1x12x768_2_3 : S12x768.BroadcastsInDim S1x1x12x768 (![2, 3] : Fin 2 → Fin S1x1x12x768.rank)
  bcast_S8x1024x1x768_S8x1024x12x768_0_1_2_3 : S8x1024x1x768.BroadcastsInDim S8x1024x12x768 (![0, 1, 2, 3] : Fin 4 → Fin S8x1024x12x768.rank)
  bcast_S1x1x12x768_S8x1024x12x768_0_1_2_3 : S1x1x12x768.BroadcastsInDim S8x1024x12x768 (![0, 1, 2, 3] : Fin 4 → Fin S8x1024x12x768.rank)
  bcast_S768_S1x1x1x768_3 : S768.BroadcastsInDim S1x1x1x768 (![3] : Fin 1 → Fin S1x1x1x768.rank)
  bcast_S1x1x1x768_S8x1024x12x768_0_1_2_3 : S1x1x1x768.BroadcastsInDim S8x1024x12x768 (![0, 1, 2, 3] : Fin 4 → Fin S8x1024x12x768.rank)
  bcast_S_S8x1024x12x768 : S_.BroadcastsInDim S8x1024x12x768 (![] : Fin 0 → Fin S8x1024x12x768.rank)
  dot_S8x1024x768_S768x768_S8x1024x768_2_1_01_0_n_n_wf : DotDims.WF S8x1024x768 S768x768 S8x1024x768 [2] [1] [0, 1] [0] [] []
  dot_S12x128_S768x128_S12x768_1_1_0_0_n_n_wf : DotDims.WF S12x128 S768x128 S12x768 [1] [1] [0] [0] [] []

variable [Facts₀]

def dot_S8x1024x768_S768x768_S8x1024x768_2_1_01_0_n_n : DotDims S8x1024x768 S768x768 S8x1024x768 where
  lhsContracting := [2]
  rhsContracting := [1]
  lhsNonContracting := [0, 1]
  rhsNonContracting := [0]
  lhsBatch := []
  rhsBatch := []
  wf := dot_S8x1024x768_S768x768_S8x1024x768_2_1_01_0_n_n_wf
def dot_S12x128_S768x128_S12x768_1_1_0_0_n_n : DotDims S12x128 S768x128 S12x768 where
  lhsContracting := [1]
  rhsContracting := [1]
  lhsNonContracting := [0]
  rhsNonContracting := [0]
  lhsBatch := []
  rhsBatch := []
  wf := dot_S12x128_S768x128_S12x768_1_1_0_0_n_n_wf

class Facts : Prop extends Facts₀ where

variable [Facts]
-- ==== Proof.LibRowOps.lean ====
/-
  Reads at an index, for rank-2 arrays, of the operations a row-wise kernel and its reference are built from — stated
  for any extents, at the ideal values (floats are extended reals) where a float operation is involved:

  * a matrix product contracting the left operand's columns with the right operand's rows (a `tpu.matmul` into the
    zero accumulator, the host's `dot_general`), read at `(i, j)`, is the sum over `k` of `l (i, k) * r (k, j)`;
  * three equally wide arrays joined along the columns, read at `(a, c)`, are piece `c / 64` at `(a, c % 64)`;
  * a column `[a, 1]` broadcast along the rows' direction to `[a, b]` reads, at `(p, c)`, the column at `p`;
  * a scalar broadcast to any shape reads the scalar everywhere.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Idealize.ShloMosaic.RowOps

open Idealize.ShloMosaic Idealize.ShloMosaic.ValueIdx

/-! ## The plain matrix product -/

/-- The dimension numbers of `[A, K] × [K, B] → [A, B]`: the left operand's axis 1 contracted with the right operand's
    axis 0, no batch axis. -/
abbrev plainDims {A K B : Nat}
    (wf : DotDims.WF (⟨2, ![A, K]⟩ : Shape) ⟨2, ![K, B]⟩ ⟨2, ![A, B]⟩ [1] [0] [0] [1] [] []) :
    DotDims (⟨2, ![A, K]⟩ : Shape) ⟨2, ![K, B]⟩ ⟨2, ![A, B]⟩ :=
  ⟨[1], [0], [0], [1], [], [], wf⟩

/-- Off the contracted axis the left operand's index is the result's row, whatever the contraction position. -/
theorem plain_lhs0 {A K B : Nat} (wf : DotDims.WF (⟨2, ![A, K]⟩ : Shape) ⟨2, ![K, B]⟩ ⟨2, ![A, B]⟩ [1] [0] [0] [1] [] [])
    (j : (⟨2, ![A, B]⟩ : Shape).Idx) (q : (plainDims wf).contr.Idx) :
    ((plainDims wf).lhsIdx j q 0).val = (j 0).val := by
  unfold DotDims.lhsIdx
  rw [dif_neg (show ¬(0 : Fin 2) ∈ ([] : List (Fin 2)) from List.not_mem_nil),
    dif_pos (show (0 : Fin 2) ∈ ([0] : List (Fin 2)) from List.mem_singleton.mpr rfl)]
  rfl

/-- Off the contracted axis the right operand's index is the result's column, whatever the contraction position. -/
theorem plain_rhs1 {A K B : Nat} (wf : DotDims.WF (⟨2, ![A, K]⟩ : Shape) ⟨2, ![K, B]⟩ ⟨2, ![A, B]⟩ [1] [0] [0] [1] [] [])
    (j : (⟨2, ![A, B]⟩ : Shape).Idx) (q : (plainDims wf).contr.Idx) :
    ((plainDims wf).rhsIdx j q 1).val = (j 1).val := by
  unfold DotDims.rhsIdx
  rw [dif_neg (show ¬(1 : Fin 2) ∈ ([] : List (Fin 2)) from List.not_mem_nil),
    dif_pos (show (1 : Fin 2) ∈ ([1] : List (Fin 2)) from List.mem_singleton.mpr rfl)]
  rfl

/-- The contraction sum of a plain matrix product, re-indexed by the contracted coordinate: at `j = (i, c)` the left
    operand is read along row `i`, the right one down column `c`. -/
theorem plainDot_sum {A K B : Nat} (d : DotDims (⟨2, ![A, K]⟩ : Shape) ⟨2, ![K, B]⟩ ⟨2, ![A, B]⟩)
    (hd : ∃ wf, d = plainDims wf)
    (l : (⟨2, ![A, K]⟩ : Shape).Idx → EReal) (r : (⟨2, ![K, B]⟩ : Shape).Idx → EReal) (j : (⟨2, ![A, B]⟩ : Shape).Idx) :
    ∑ k : d.contr.Idx, l (d.lhsIdx j k) * r (d.rhsIdx j k) = ∑ k : Fin K, l (ix2 (j 0) k) * r (ix2 k (j 1)) := by
  obtain ⟨wf, rfl⟩ := hd
  rw [← Equiv.sum_comp (contrEquiv1 (plainDims wf) K rfl rfl).symm]
  refine Finset.sum_congr rfl fun k _ => ?_
  have hk := contrEquiv1_symm_val (plainDims wf) K rfl rfl k
  have el : (plainDims wf).lhsIdx j ((contrEquiv1 (plainDims wf) K rfl rfl).symm k) = ix2 (j 0) k :=
    funext fun a => Fin.ext (by
      match a with
      | ⟨0, _⟩ => exact plain_lhs0 wf j _
      | ⟨1, _⟩ => exact ((plainDims wf).lhsIdx_val_of_single (cl := 1) rfl j _).trans hk)
  have er : (plainDims wf).rhsIdx j ((contrEquiv1 (plainDims wf) K rfl rfl).symm k) = ix2 k (j 1) :=
    funext fun a => Fin.ext (by
      match a with
      | ⟨0, _⟩ => exact ((plainDims wf).rhsIdx_val_of_single (cr := 0) rfl j _).trans hk
      | ⟨1, _⟩ => exact plain_rhs1 wf j _)
  rw [el, er]
  rfl

/-- A `tpu.matmul` of a plain product into the zero accumulator, read at `(i, c)`: the sum over `k` of
    `l (i, k) * r (k, c)`. -/
theorem matmul_zero_plain_apply {A K B : Nat} {φ₁ φ₂ : FTy} (d : DotDims (⟨2, ![A, K]⟩ : Shape) ⟨2, ![K, B]⟩ ⟨2, ![A, B]⟩)
    (hd : ∃ wf, d = plainDims wf) (prec : Option ContractPrecision)
    (l : FVec Ideal (⟨2, ![A, K]⟩ : Shape) φ₁) (r : FVec Ideal (⟨2, ![K, B]⟩ : Shape) φ₂) (i : Fin A) (c : Fin B) :
    FloatOps.matmul d prec l r (constant (⟨2, ![A, B]⟩ : Shape) .f32 0x00000000#32) (ix2 i c)
      = ∑ k : Fin K, l (ix2 i k) * r (ix2 k c) := by
  rw [Ideal.matmul_constant_zero_apply]
  exact plainDot_sum d hd l r (ix2 i c)

/-- The host's `dot_general` of a plain product, read at `(i, c)`: the same sum. -/
theorem dotGeneral_plain_apply {A K B : Nat} {φ₁ φ₂ : FTy} (d : DotDims (⟨2, ![A, K]⟩ : Shape) ⟨2, ![K, B]⟩ ⟨2, ![A, B]⟩)
    (hd : ∃ wf, d = plainDims wf) (prec : Option ContractPrecision) (sched : HostSchedule)
    (l : FVec Ideal (⟨2, ![A, K]⟩ : Shape) φ₁) (r : FVec Ideal (⟨2, ![K, B]⟩ : Shape) φ₂) (i : Fin A) (c : Fin B) :
    FloatOps.dotGeneral d prec sched l r (ix2 i c) = ∑ k : Fin K, l (ix2 i k) * r (ix2 k c) := by
  rw [Ideal.dotGeneral_apply]
  exact plainDot_sum d hd l r (ix2 i c)

/-! ## Three pieces joined along the columns -/

variable {α : Type}

/-- Three `[A, 64]` arrays joined along axis 1 into `[A, 192]`, read at `(a, c)`: piece `c / 64` at `(a, c % 64)`. -/
theorem concat3_apply {A : Nat} (u0 u1 u2 : (⟨2, ![A, 64]⟩ : Shape).Idx → α)
    (h : Shape.Concatenates [(⟨2, ![A, 64]⟩ : Shape), ⟨2, ![A, 64]⟩, ⟨2, ![A, 64]⟩] ⟨2, ![A, 192]⟩ 1)
    (a : Fin A) (c : Fin 192) :
    concatenate (⟨2, ![A, 192]⟩ : Shape) 1 [⟨⟨2, ![A, 64]⟩, u0⟩, ⟨⟨2, ![A, 64]⟩, u1⟩, ⟨⟨2, ![A, 64]⟩, u2⟩] h (ix2 a c)
      = (![u0, u1, u2] ⟨c.val / 64, by have := c.isLt; omega⟩) (ix2 a ⟨c.val % 64, Nat.mod_lt _ (by decide)⟩) := by
  refine concatenate_ofFn_apply (t := (⟨2, ![A, 192]⟩ : Shape)) (s₁ := (⟨2, ![A, 64]⟩ : Shape)) 1 ![u0, u1, u2] h rfl 64 rfl
    (ix2 a c) ⟨c.val / 64, by have := c.isLt; omega⟩ rfl (ix2 a ⟨c.val % 64, Nat.mod_lt _ (by decide)⟩) rfl ?_
  intro b hb
  match b with
  | ⟨0, _⟩ => rfl
  | ⟨1, _⟩ => exact absurd rfl hb

/-! ## A column broadcast along its rows -/

/-- An `[a, 1]` array broadcast to `[a, b]` reads, at `(p, c)`, the operand's one column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## A scalar broadcast -/

/-- A scalar broadcast to any shape reads, everywhere, the scalar. -/
theorem broadcastInDim_scalar_apply {t : Shape} (h : (⟨0, ![]⟩ : Shape).BroadcastsInDim t (![] : Fin 0 → Fin t.rank))
    (x : (⟨0, ![]⟩ : Shape).Idx → α) (j : t.Idx) :
    broadcastInDim t ![] h x j = x ix0 :=
  broadcastInDim_apply ![] h x j ix0 fun a => a.elim0

end Idealize.ShloMosaic.RowOps

end
-- ==== Proof.RowBlock.lean ====
/-
  One grid point of the kernel computes a block of 256 rows of the output: the rows' hidden states `x0` ([256, 768])
  times the resident weight `x1` ([768, 768]), and then, for each of the twelve width slots `w`, that product plus row `w` of
  the small table `x2` ([12, 768]), clamped below at zero, stored into slot `w` of the block ([256, 12, 768]).

  Read at the extended reals: the element of the block at row `r`, slot `w`, column `o` is
      max ((∑ k, x0 (r, k) * x1 (k, o)) + x2 (w, o)) 0 .
  The twelve stores are twelve pieces of ONE such function of the block index, each piece the slab `w = const`; since the
  slabs cover the block, the block is that function (the order of the stores does not matter).
-/
import proofs.«142006_j39599598469527_2_alg».proof.Proof.Gen.KernelIdeal.Frame
import proofs.«142006_j39599598469527_2_alg».proof.Proof.LibRowOps
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.RowBlock

open Cert.KernelIdeal Cert.KernelIdeal.Gen
open Idealize.ShloMosaic Idealize.ShloMosaic.ValueIdx Idealize.ShloMosaic.RowOps

/-! ## One width slot -/

/-- What the body stores into one width slot: the product `mm` plus the slot's row of the table repeated down the 256
    rows, clamped below at zero, with the unit slot axis put in. -/
def slot {F : FTy → Type} [FloatOps F] (mm : FVec F S256x768 .f32) (row : Vec F S1x768 .f32) : FVec F S256x1x768 .f32 :=
  shapeCast S256x1x768
    (maximumf (addf mm (broadcastTo S256x768 (shapeCast S1x768 (shapeCast S768 row shapeCasts_S1x768_S768) shapeCasts_S768_S1x768)
      broadcasts_S1x768_S256x768)) (broadcast S256x768 (Scalar.ofBits .f32 0x00000000#32)))
    shapeCasts_S256x768_S256x1x768

/-- The slot's element at row `r`, column `o`: `max (mm (r, o) + row (0, o)) 0`. -/
theorem slot_apply (mm : FVec Ideal S256x768 .f32) (row : Vec Ideal S1x768 .f32) (r : Fin 256) (u : Fin 1) (o : Fin 768) :
    slot mm row (ix3 r u o) = max (mm (ix2 r o) + row (ix2 (0 : Fin 1) o)) (Ideal.ofBits .f32 0x00000000#32) := by
  unfold slot
  refine (shapeCast_apply _ shapeCasts_S256x768_S256x1x768 (ix3 r u o) (ix2 r o) ?_).trans ?_
  · rw [Shape.rowMajor_val_two, Shape.rowMajor_val_three]
    show r.val * 768 + o.val = (r.val * 1 + u.val) * 768 + o.val
    have := u.isLt; omega
  · show max (mm (ix2 r o) + broadcastTo S256x768 (shapeCast S1x768 (shapeCast S768 row shapeCasts_S1x768_S768) shapeCasts_S768_S1x768)
        broadcasts_S1x768_S256x768 (ix2 r o)) (Ideal.ofBits .f32 0x00000000#32) = _
    rw [broadcastTo_1b_ab_apply, shapeCast_a_1a_apply, shapeCast_1a_a_apply]

/-! ## The product -/

/-- The body's product at row `r`, column `o`: the sum over the 768 hidden coordinates (narrowing the left operand's
    format changes nothing at the extended reals, and the accumulator starts at zero). -/
theorem product_apply (x0 : Vec Ideal S256x768 .f32) (x1 : Vec Ideal S768x768 .bf16) (r : Fin 256) (o : Fin 768) :
    k0_pay4 x0 x1 (ix2 r o) = ∑ k : Fin 768, x0 (ix2 r k) * x1 (ix2 k o) := by
  unfold k0_pay4
  rw [shapeCast_self, shapeCast_self]
  exact matmul_zero_plain_apply (A := 256) (K := 768) (B := 768) dot_S256x768_S768x768_S256x768_1_0_0_1_n_n ⟨_, rfl⟩ none _ _ r o

/-! ## The block -/

/-- The block a grid point computes, as one function of the block index. -/
def blockFn (x0 : Vec Ideal S256x768 .f32) (x1 : Vec Ideal S768x768 .bf16) (x2 : Vec Ideal S12x768 .f32) (r : Fin 256) (w : Fin 12) (o : Fin 768) : EReal :=
  max ((∑ k : Fin 768, x0 (ix2 r k) * x1 (ix2 k o)) + x2 (ix2 w o)) (Ideal.ofBits .f32 0x00000000#32)

/-- The same read at an index of the block. -/
def blockAt (x0 : Vec Ideal S256x768 .f32) (x1 : Vec Ideal S768x768 .bf16) (x2 : Vec Ideal S12x768 .f32) : S256x12x768.Idx → EReal :=
  fun y => blockFn x0 x1 x2 (y 0) (y 1) (y 2)

/-- The piece stored into slot `w` is the slab `w` of that function. -/
theorem piece_apply (x0 : Vec Ideal S256x768 .f32) (x1 : Vec Ideal S768x768 .bf16) (x2 : Vec Ideal S12x768 .f32) (w : Fin 12)
    (inbO : ∀ a, (![0, w.val, 0] : Fin 3 → Nat) a + S256x1x768.size a ≤ S256x12x768.size a)
    (inbR : ∀ a, (![w.val, 0] : Fin 2 → Nat) a + S1x768.size a ≤ S12x768.size a) (x : S256x1x768.Idx) :
    slot (k0_pay4 (View.ld x0 r0_0) (View.ld x1 r0_1)) (View.ld x2 (Rect.unit (s := S12x768) ![w.val, 0] S1x768.size inbR)) x
      = blockAt x0 x1 x2 ((Rect.unit (s := S256x12x768) ![0, w.val, 0] S256x1x768.size inbO).emb x) := by
  obtain ⟨r, u, o, rfl⟩ : ∃ (r : Fin 256) (u : Fin 1) (o : Fin 768), x = ix3 r u o := ⟨x 0, x 1, x 2, eq_ix3 x⟩
  have hu : u = 0 := Subsingleton.elim _ _
  subst hu
  rw [slot_apply, product_apply]
  have hz : (![0, 0] : Fin 2 → Nat) = fun _ => 0 := funext fun a => by fin_cases a <;> rfl
  rw [View.ld_unit_zero (S := S256x768) hz, View.ld_unit_zero (S := S768x768) hz]
  unfold blockAt blockFn
  have e0 : ((Rect.unit (s := S256x12x768) ![0, w.val, 0] S256x1x768.size inbO).emb (ix3 r (0 : Fin 1) o) 0 : Fin 256) = r :=
    Fin.ext (by show 0 + 1 * r.val = r.val; omega)
  have e1 : ((Rect.unit (s := S256x12x768) ![0, w.val, 0] S256x1x768.size inbO).emb (ix3 r (0 : Fin 1) o) 1 : Fin 12) = w :=
    Fin.ext (by show w.val + 1 * 0 = w.val; omega)
  have e2 : ((Rect.unit (s := S256x12x768) ![0, w.val, 0] S256x1x768.size inbO).emb (ix3 r (0 : Fin 1) o) 2 : Fin 768) = o :=
    Fin.ext (by show 0 + 1 * o.val = o.val; omega)
  rw [e0, e1, e2]
  have er : (Rect.unit (s := S12x768) ![w.val, 0] S1x768.size inbR).idx (ix2 (0 : Fin 1) o) = ix2 w o :=
    funext fun a => Fin.ext (by
      match a with
      | ⟨0, _⟩ => show w.val + 1 * 0 = w.val; omega
      | ⟨1, _⟩ => show 0 + 1 * o.val = o.val; omega)
  show max (_ + x2 ((Rect.unit (s := S12x768) ![w.val, 0] S1x768.size inbR).idx (ix2 (0 : Fin 1) o))) _ = _
  rw [er]

/-- THE BLOCK: what the body leaves in the output's buffer, at every index, is `blockAt` of the three loaded blocks. -/
theorem out_apply (x0 : Vec Ideal S256x768 .f32) (x1 : Vec Ideal S768x768 .bf16) (x2 : Vec Ideal S12x768 .f32) (y : S256x12x768.Idx) :
    out0_3 x0 x1 x2 y = blockAt x0 x1 x2 y := by
  unfold out0_3
  refine View.canon_apply_of_pieces (Val := Elt Ideal) (blockAt x0 x1 x2) _ ?_ y (cover0_3 _ _ _ _ _ _ _ _ _ _ _ _ y)
  intro p hp
  simp only [List.mem_cons, List.mem_nil_iff, or_false] at hp
  rcases hp with rfl | rfl | rfl | rfl | rfl | rfl | rfl | rfl | rfl | rfl | rfl | rfl
  · exact piece_apply x0 x1 x2 (11 : Fin 12) inb_S256x12x768_S256x1x768_0_11_0 inb_S12x768_S1x768_11_0
  · exact piece_apply x0 x1 x2 (10 : Fin 12) inb_S256x12x768_S256x1x768_0_10_0 inb_S12x768_S1x768_10_0
  · exact piece_apply x0 x1 x2 (9 : Fin 12) inb_S256x12x768_S256x1x768_0_9_0 inb_S12x768_S1x768_9_0
  · exact piece_apply x0 x1 x2 (8 : Fin 12) inb_S256x12x768_S256x1x768_0_8_0 inb_S12x768_S1x768_8_0
  · exact piece_apply x0 x1 x2 (7 : Fin 12) inb_S256x12x768_S256x1x768_0_7_0 inb_S12x768_S1x768_7_0
  · exact piece_apply x0 x1 x2 (6 : Fin 12) inb_S256x12x768_S256x1x768_0_6_0 inb_S12x768_S1x768_6_0
  · exact piece_apply x0 x1 x2 (5 : Fin 12) inb_S256x12x768_S256x1x768_0_5_0 inb_S12x768_S1x768_5_0
  · exact piece_apply x0 x1 x2 (4 : Fin 12) inb_S256x12x768_S256x1x768_0_4_0 inb_S12x768_S1x768_4_0
  · exact piece_apply x0 x1 x2 (3 : Fin 12) inb_S256x12x768_S256x1x768_0_3_0 inb_S12x768_S1x768_3_0
  · exact piece_apply x0 x1 x2 (2 : Fin 12) inb_S256x12x768_S256x1x768_0_2_0 inb_S12x768_S1x768_2_0
  · exact piece_apply x0 x1 x2 (1 : Fin 12) inb_S256x12x768_S256x1x768_0_1_0 inb_S12x768_S1x768_1_0
  · exact piece_apply x0 x1 x2 (0 : Fin 12) inb_S256x12x768_S256x1x768_0_0_0 inb_S12x768_S1x768_0_0

end Cert.KernelIdeal.RowBlock

end
-- ==== Proof.RegionArray.lean ====
/-
  The array the pipelined region writes, as ONE function of the three arrays it reads.

  The region runs 32 grid points; point `t` reads rows `256 t … 256 t + 255` of the flattened hidden states `X` ([8192, 768]),
  the whole weight `WT` ([768, 768]) and the whole table `QB` ([12, 768]), and writes rows `256 t … 256 t + 255` of the
  output ([8192, 12, 768]). So what point `t` writes back is block `t` of
      arrayFn X WT QB (r, w, o) = max ((∑ k, X (r, k) * WT (k, o)) + QB (w, o)) 0 ,
  the 32 blocks cover the 8192 rows (row `r` is in block `r / 256`), and the array ends holding `arrayFn`.
-/
import proofs.«142006_j39599598469527_2_alg».proof.Proof.RowBlock

noncomputable section

open scoped BigOperators

namespace Cert.KernelIdeal.RegionArray

open Cert.KernelIdeal Cert.KernelIdeal.Gen
open Idealize.ShloMosaic Idealize.ShloMosaic.TcCoe Idealize.SL.Sem Idealize.ShloMosaic.ValueIdx
open Idealize.ShloMosaic.Pipeline (Dat)

/-- The output array as a function of the arrays the region reads. -/
def arrayFn (X : S8192x768.Idx → EReal) (WT : S768x768.Idx → EReal) (QB : S12x768.Idx → EReal) : S8192x12x768.Idx → EReal :=
  fun i => max ((∑ k : Fin 768, X (ix2 (i 0) k) * WT (ix2 k (i 2))) + QB (ix2 (i 1) (i 2))) (Ideal.ofBits .f32 0x00000000#32)

/-- A block's function at a block index is the array's function at an array index, as soon as the three loaded blocks
    read, along the row, down the column and at the table entry, what the arrays hold there. -/
theorem blockAt_eq_arrayFn (X : S8192x768.Idx → EReal) (WT : S768x768.Idx → EReal) (QB : S12x768.Idx → EReal)
    (x0 : Vec Ideal S256x768 .f32) (x1 : Vec Ideal S768x768 .bf16) (x2 : Vec Ideal S12x768 .f32)
    (y : S256x12x768.Idx) (i : S8192x12x768.Idx)
    (h0 : ∀ k : Fin 768, x0 (ix2 (y 0) k) = X (ix2 (i 0) k))
    (h1 : ∀ k : Fin 768, x1 (ix2 k (y 2)) = WT (ix2 k (i 2)))
    (h2 : x2 (ix2 (y 1) (y 2)) = QB (ix2 (i 1) (i 2))) :
    RowBlock.blockAt x0 x1 x2 y = arrayFn X WT QB i := by
  unfold RowBlock.blockAt RowBlock.blockFn arrayFn
  rw [h2, Finset.sum_congr rfl fun k _ => by rw [h0 k, h1 k]]

variable (m : (ℓ : Loc nD τ sig) → Buf (Elt Ideal) ℓ)

/-- The windows' index maps, decided over the 32 points: the hidden states' block moves with the output's along the
    rows, the weight and the table stay whole, and the output's row block is the point's number. -/
theorem idx_facts : ∀ t : Fin cfg0.N,
    win0_0.index t (0 : Fin 2) = win0_3.index t (0 : Fin 3) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 3) = 0 ∧ win0_3.index t (2 : Fin 3) = 0 :=
  (by decide +kernel : ∀ t : Fin grid0.N, _)

/-- Every row block is some point's. -/
theorem idx_onto : ∀ q : Fin 32, ∃ t : Fin cfg0.N, win0_3.index t = ![q.val, 0, 0] :=
  (by decide +kernel : ∀ q : Fin 32, ∃ t : Fin grid0.N, win0_3.index t = ![q.val, 0, 0])

/-- WHAT POINT `t` WRITES BACK is block `t` of `arrayFn` of the arrays as the region finds them. -/
theorem flushed_eq (c : Dev nD) (t : Fin cfg0.N) :
    (dats m 0 c).flushed 3 t = ((cfg0.win 3).blk t).view.read (Elt Ideal) (arrayFn (V m c main_v10) (V m c main_v9) (V m c main_v7)) := by
  show (cfg0.win 3).cut (grid0.coords t) ((dats m 0 c).after 3 t) = _
  rw [after0_3]
  obtain ⟨e00, e01, e10, e11, e20, e21, e31, e32⟩ := idx_facts t
  funext j
  show out0_3 (iblk m c 0 t) (iblk m c 1 t) (iblk m c 2 t) j = arrayFn (V m c main_v10) (V m c main_v9) (V m c main_v7) (((cfg0.win 3).blk t).view.emb j)
  refine (RowBlock.out_apply (iblk m c 0 t) (iblk m c 1 t) (iblk m c 2 t) j).trans ?_
  refine blockAt_eq_arrayFn (V m c main_v10) (V m c main_v9) (V m c main_v7) (iblk m c 0 t) (iblk m c 1 t) (iblk m c 2 t) j
    (((cfg0.win 3).blk t).view.emb j) (fun k => ?_) (fun k => ?_) ?_
  · show V m c main_v10 (((cfg0.win 0).blk t).view.emb (ix2 (j 0) k)) = V m c main_v10 (ix2 ((((cfg0.win 3).blk t).view.emb j) 0) k)
    refine congrArg (V m c main_v10) (funext fun a => Fin.ext ?_)
    match a with
    | ⟨0, _⟩ => show win0_0.index t (0 : Fin 2) * 256 + 1 * (j 0).val = win0_3.index t (0 : Fin 3) * 256 + 1 * (j 0).val; omega
    | ⟨1, _⟩ => show win0_0.index t (1 : Fin 2) * 768 + 1 * k.val = k.val; omega
  · show V m c main_v9 (((cfg0.win 1).blk t).view.emb (ix2 k (j 2))) = V m c main_v9 (ix2 k ((((cfg0.win 3).blk t).view.emb j) 2))
    refine congrArg (V m c main_v9) (funext fun a => Fin.ext ?_)
    match a with
    | ⟨0, _⟩ => show win0_1.index t (0 : Fin 2) * 768 + 1 * k.val = k.val; omega
    | ⟨1, _⟩ => show win0_1.index t (1 : Fin 2) * 768 + 1 * (j 2).val = win0_3.index t (2 : Fin 3) * 768 + 1 * (j 2).val; omega
  · show V m c main_v7 (((cfg0.win 2).blk t).view.emb (ix2 (j 1) (j 2))) = V m c main_v7 (ix2 ((((cfg0.win 3).blk t).view.emb j) 1) ((((cfg0.win 3).blk t).view.emb j) 2))
    refine congrArg (V m c main_v7) (funext fun a => Fin.ext ?_)
    match a with
    | ⟨0, _⟩ => show win0_2.index t (0 : Fin 2) * 12 + 1 * (j 1).val = win0_3.index t (1 : Fin 3) * 12 + 1 * (j 1).val; omega
    | ⟨1, _⟩ => show win0_2.index t (1 : Fin 2) * 768 + 1 * (j 2).val = win0_3.index t (2 : Fin 3) * 768 + 1 * (j 2).val; omega

/-- An index of the array is in point `t`'s block iff each coordinate is in the block's range on its axis. -/
theorem mem_blk (t : Fin cfg0.N) (i : S8192x12x768.Idx) :
    i ∈ ((cfg0.win 3).blk t).view.set ↔ ∀ a : Fin 3, win0_3.index t a * S256x12x768.size a ≤ (i a).val ∧ (i a).val < win0_3.index t a * S256x12x768.size a + S256x12x768.size a := by
  show i ∈ ((View.whole main_v11).slice (win0_3.rect t)).set ↔ _
  rw [View.set_slice_whole, Rect.mem_set_unit]
  exact Iff.rfl

/-- Every index of the array is in some point's block: row `r` is in block `r / 256`. -/
theorem cover (i : S8192x12x768.Idx) : ∃ t : Fin cfg0.N, (cfg0.win 3).flush t = true ∧ i ∈ ((cfg0.win 3).blk t).view.set := by
  have hi0 : (i 0).val < 8192 := (i 0).isLt
  have hi1 : (i 1).val < 12 := (i 1).isLt
  have hi2 : (i 2).val < 768 := (i 2).isLt
  obtain ⟨t, ht⟩ := idx_onto ⟨(i 0).val / 256, by omega⟩
  have q0 : win0_3.index t (0 : Fin 3) = (i 0).val / 256 := congrFun ht 0
  have q1 : win0_3.index t (1 : Fin 3) = 0 := congrFun ht 1
  have q2 : win0_3.index t (2 : Fin 3) = 0 := congrFun ht 2
  refine ⟨t, flush0_3 t, ?_⟩
  rw [mem_blk]
  intro a
  match a with
  | ⟨0, _⟩ => show win0_3.index t (0 : Fin 3) * 256 ≤ (i 0).val ∧ (i 0).val < win0_3.index t (0 : Fin 3) * 256 + 256; omega
  | ⟨1, _⟩ => show win0_3.index t (1 : Fin 3) * 12 ≤ (i 1).val ∧ (i 1).val < win0_3.index t (1 : Fin 3) * 12 + 12; omega
  | ⟨2, _⟩ => show win0_3.index t (2 : Fin 3) * 768 ≤ (i 2).val ∧ (i 2).val < win0_3.index t (2 : Fin 3) * 768 + 768; omega

/-- THE ARRAY after the region: `arrayFn` of the arrays as the region finds them. -/
theorem final (c : Dev nD) :
    (dats m 0 c).arrAt 3 cfg0.N = arrayFn (V m c main_v10) (V m c main_v9) (V m c main_v7) :=
  (dats m 0 c).arrAt_eq_of_cover 3 _ (fun t _ => flushed_eq m c t) cover

end Cert.KernelIdeal.RegionArray

end
-- ==== Proof.HostLines.lean ====
/-
  The arrays the region reads are written by the program's own first lines, from the four arguments:

  * the hidden states `[8, 1024, 768]` flattened to `[8192, 768]` (a reshape: row `1024 b + l` is the state at `(b, l)`);
  * the weight's first 768 columns, transposed to `[768 (hidden coordinate), 768 (output)]` and narrowed in format;
  * the table `[12, 768]`: the twelve width embeddings (the parameter `[128, 12]` re-read as `[12, 128]`) times the weight's
    last 128 columns, transposed, plus the bias repeated down the twelve rows.

  Each is read back here as that term of the arguments' contents at launch.
-/
import proofs.«142006_j39599598469527_2_alg».proof.Proof.Gen.KernelIdeal.Frame
import Idealize.ShloMosaic.Lib.StableHlo.Run
import Idealize.ShloMosaic.PureOps.Ideal

noncomputable section

namespace Cert.KernelIdeal.HostLines

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ)

/-- The width embeddings as the program reads them: the parameter `[128, 12]` re-read, in row-major order, as `[12, 128]`. -/
abbrev widthRows (qs : S128x12.Idx → EReal) : S12x128.Idx → EReal := shapeCast S12x128 qs shapeCasts_S128x12_S12x128
/-- The weight's first 768 columns: the part applied to the hidden state, `[768 (output), 768]`. -/
abbrev stateWeight (W : S768x896.Idx → EReal) : S768x768.Idx → EReal := extractStridedSlice S768x768 ![0, 0] W slices_S768x896_S768x768_0_0
/-- The weight's last 128 columns: the part applied to the width embedding, `[768 (output), 128]`. -/
abbrev widthWeight (W : S768x896.Idx → EReal) : S768x128.Idx → EReal := extractStridedSlice S768x128 ![0, 768] W slices_S768x896_S768x128_0_768

/-- The flattened hidden states. -/
theorem states_eq (c : Dev nD) :
    (V m c main_v10 : S8192x768.Idx → EReal)
      = shapeCast S8192x768 (m ((c : Thread nD τ).loc main_arg0)) shapeCasts_S8x1024x768_S8192x768 := by
  show StableHlo.after hostOps0 (fun b => m (c, b)) (Proc.devRef .tc main_v10) = _
  after_results <;> rfl

/-- The resident weight. -/
theorem weight_eq (c : Dev nD) :
    (V m c main_v9 : S768x768.Idx → EReal)
      = truncf (F := Ideal) .bf16 (transpose S768x768 [1, 0] (stateWeight (m ((c : Thread nD τ).loc main_arg2))) transposes_S768x768_S768x768_1_0) bitsLt_bf16_f32 := by
  show StableHlo.after hostOps0 (fun b => m (c, b)) (Proc.devRef .tc main_v9) = _
  after_results <;> rfl

/-- The table of the twelve width terms, bias included. -/
theorem table_eq (c : Dev nD) :
    (V m c main_v7 : S12x768.Idx → EReal)
      = addf (F := Ideal) (Host.dotGeneral (F := Ideal) (φ₁ := .f32) (φ₂ := .f32) dot_S12x128_S128x768_S12x768_1_0_0_1_n_n none (widthRows (m ((c : Thread nD τ).loc main_arg1)))
            (transpose S128x768 [1, 0] (widthWeight (m ((c : Thread nD τ).loc main_arg2))) transposes_S768x128_S128x768_1_0))
          (broadcastInDim S12x768 ![0, 1] bcast_S1x768_S12x768_0_1 (broadcastInDim S1x768 ![1] bcast_S768_S1x768_1 (m ((c : Thread nD τ).loc main_arg3)))) := by
  show StableHlo.after hostOps0 (fun b => m (c, b)) (Proc.devRef .tc main_v7) = _
  after_results <;> rfl

end Cert.KernelIdeal.HostLines

end
-- ==== Proof.Spec.lean ====
/-
  What both programs compute, as ONE function of the arguments, read at the extended reals.

  With `h` the hidden states `[8, 1024, 768]`, `q` the twelve width embeddings `[12, 128]`, `W1` and `W2` the two parts of
  the weight (`[768, 768]` applied to the state, `[768, 128]` applied to the embedding; both indexed output first) and `b`
  the bias `[768]`, the result at batch `n`, position `l`, width `w`, output `o` is

      widthLinear h q W1 W2 b n l w o = max ((∑ d, h (n, l, d) * W1 (o, d)) + ((∑ k, q (w, k) * W2 (o, k)) + b o)) 0 :

  the linear layer applied to the state joined with the width's embedding, clamped below at zero. The kernel adds the bias
  to the width term first and the state term last; the reference adds the two matrix terms first and the bias last. Addition
  on the extended reals is associative, at infinities too, so the two groupings are one value (`regroup`): no finiteness
  is needed.
-/
import Idealize.ShloMosaic.PureOps.Ideal
import Idealize.ShloMosaic.Lib.ValueIdx

noncomputable section

open scoped BigOperators

namespace Cert.WidthLinear

open Idealize.ShloMosaic Idealize.ShloMosaic.ValueIdx

/-- The result at `(n, l, w, o)`. -/
def widthLinear (h : (⟨3, ![8, 1024, 768]⟩ : Shape).Idx → EReal) (q : (⟨2, ![12, 128]⟩ : Shape).Idx → EReal)
    (W1 : (⟨2, ![768, 768]⟩ : Shape).Idx → EReal) (W2 : (⟨2, ![768, 128]⟩ : Shape).Idx → EReal) (b : (⟨1, ![768]⟩ : Shape).Idx → EReal)
    (n : Fin 8) (l : Fin 1024) (w : Fin 12) (o : Fin 768) : EReal :=
  max ((∑ d : Fin 768, h (ix3 n l d) * W1 (ix2 o d)) + ((∑ k : Fin 128, q (ix2 w k) * W2 (ix2 o k)) + b (ix1 o)))
    (Ideal.ofBits .f32 0x00000000#32)

/-- The same as an array `[8, 1024, 12, 768]`. -/
def widthLinearAt (h : (⟨3, ![8, 1024, 768]⟩ : Shape).Idx → EReal) (q : (⟨2, ![12, 128]⟩ : Shape).Idx → EReal)
    (W1 : (⟨2, ![768, 768]⟩ : Shape).Idx → EReal) (W2 : (⟨2, ![768, 128]⟩ : Shape).Idx → EReal) (b : (⟨1, ![768]⟩ : Shape).Idx → EReal) :
    (⟨4, ![8, 1024, 12, 768]⟩ : Shape).Idx → EReal :=
  fun i => widthLinear h q W1 W2 b (i 0) (i 1) (i 2) (i 3)

/-- The two groupings of the three terms are one value. -/
theorem regroup (s t c z : EReal) : max ((s + t) + c) z = max (s + (t + c)) z := by
  rw [add_assoc]

end Cert.WidthLinear

end
-- ==== Proof.LibBroadcastReads.lean ====
/-
  `broadcast_in_dim` between vectors, one-row, one-column and full matrices, read at an index given by coordinates.

  * a vector `[a]` placed down the rows of a one-column matrix `[a, 1]` (dims = [0]) reads, at `(i, u)`, the vector at `i`;
  * a vector `[b]` placed along the one row of `[1, b]` (dims = [1]) reads, at `(u, j)`, the vector at `j`;
  * a one-column matrix `[a, 1]` repeated along the columns of `[a, b]` (dims = [0, 1]) reads, at `(i, j)`, the column at `i`;
  * a one-row matrix `[1, b]` repeated down the rows of `[a, b]` (dims = [0, 1]) reads, at `(i, j)`, the row at `j`.

  Each is the general read of the operation (the operand at the result's coordinates on the axes the map names, `0` on the
  operand's unit axes) at these shapes, for any extents.
-/
import Idealize.ShloMosaic.Lib.ValueIdx
import Idealize.ShloMosaic.Lib.Pipeline.Value

namespace Idealize.ShloMosaic.BroadcastReads

open Idealize.ShloMosaic Idealize.ShloMosaic.ValueIdx

variable {α : Type}

/-- `[a] → [a, 1]` along axis 0: at `(i, u)` the vector at `i`. -/
theorem vec_to_col_apply {a : ℕ} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) := by
  refine broadcastInDim_apply ![0] h x (ix2 i u) (ix1 i) fun ax => ?_
  match ax with
  | ⟨0, _⟩ =>
    show i.val = if a = 1 then 0 else i.val
    split
    · have := i.isLt; omega
    · rfl

/-- `[b] → [1, b]` along axis 1: at `(u, j)` the vector at `j`. -/
theorem vec_to_row_apply {b : ℕ} (x : (⟨1, ![b]⟩ : Shape).Idx → α)
    (h : (⟨1, ![b]⟩ : Shape).BroadcastsInDim ⟨2, ![1, b]⟩ ![1]) (u : Fin 1) (j : Fin b) :
    broadcastInDim ⟨2, ![1, b]⟩ ![1] h x (ix2 u j) = x (ix1 j) := by
  refine broadcastInDim_apply ![1] h x (ix2 u j) (ix1 j) fun ax => ?_
  match ax with
  | ⟨0, _⟩ =>
    show j.val = if b = 1 then 0 else j.val
    split
    · have := j.isLt; omega
    · rfl

/-- `[a, 1] → [a, b]` in place: at `(i, j)` the column at `i`. -/
theorem col_to_mat_apply {a b : ℕ} (x : (⟨2, ![a, 1]⟩ : Shape).Idx → α)
    (h : (⟨2, ![a, 1]⟩ : Shape).BroadcastsInDim ⟨2, ![a, b]⟩ ![0, 1]) (i : Fin a) (j : Fin b) :
    broadcastInDim ⟨2, ![a, b]⟩ ![0, 1] h x (ix2 i j) = x (ix2 i (0 : Fin 1)) := by
  refine broadcastInDim_apply ![0, 1] h x (ix2 i j) (ix2 i (0 : Fin 1)) fun ax => ?_
  match ax with
  | ⟨0, _⟩ =>
    show i.val = if a = 1 then 0 else i.val
    split
    · have := i.isLt; omega
    · rfl
  | ⟨1, _⟩ => rfl

/-- `[1, b] → [a, b]` in place: at `(i, j)` the row at `j`. -/
theorem row_to_mat_apply {a b : ℕ} (x : (⟨2, ![1, b]⟩ : Shape).Idx → α)
    (h : (⟨2, ![1, b]⟩ : Shape).BroadcastsInDim ⟨2, ![a, b]⟩ ![0, 1]) (i : Fin a) (j : Fin b) :
    broadcastInDim ⟨2, ![a, b]⟩ ![0, 1] h x (ix2 i j) = x (ix2 (0 : Fin 1) j) := by
  refine broadcastInDim_apply ![0, 1] h x (ix2 i j) (ix2 (0 : Fin 1) j) fun ax => ?_
  match ax with
  | ⟨0, _⟩ => rfl
  | ⟨1, _⟩ =>
    show j.val = if b = 1 then 0 else j.val
    split
    · have := j.isLt; omega
    · rfl

end Idealize.ShloMosaic.BroadcastReads
-- ==== Proof.KernelValue.lean ====
/-
  The kernel's result array, as a term of the four arguments, is `widthLinearAt` of them.

  The result `[8, 1024, 12, 768]` is the region's array `[8192, 12, 768]` re-read in row-major order: the element at
  `(n, l, w, o)` is the region's at row `1024 n + l`. There the region's function reads
    * the flattened states at `(1024 n + l, k)`: the state `h (n, l, k)`;
    * the transposed weight at `(k, o)`: `W1 (o, k)` (narrowing its format changes nothing at the extended reals);
    * the table at `(w, o)`: `(∑ k, q (w, k) * W2 (o, k)) + b o` — a plain matrix product against the transposed second part of
      the weight, plus the bias repeated down the rows.
  Together: `max ((∑ k, h (n, l, k) * W1 (o, k)) + ((∑ k, q (w, k) * W2 (o, k)) + b o)) 0`, the specification as grouped.
-/
import proofs.«142006_j39599598469527_2_alg».proof.Proof.RegionArray
import proofs.«142006_j39599598469527_2_alg».proof.Proof.HostLines
import proofs.«142006_j39599598469527_2_alg».proof.Proof.Spec
import proofs.«142006_j39599598469527_2_alg».proof.Proof.LibRowOps
import proofs.«142006_j39599598469527_2_alg».proof.Proof.LibBroadcastReads

noncomputable section

open scoped BigOperators

namespace Cert.KernelIdeal.KernelValue

open Cert.KernelIdeal Cert.KernelIdeal.Gen Cert.KernelIdeal.HostLines
open Idealize.ShloMosaic Idealize.ShloMosaic.ValueIdx Idealize.ShloMosaic.RowOps Idealize.ShloMosaic.BroadcastReads Cert.WidthLinear

/-- The table the region reads, as the program's first lines write it. -/
abbrev table (qs : S128x12.Idx → EReal) (W : S768x896.Idx → EReal) (b : S768.Idx → EReal) : S12x768.Idx → EReal :=
  addf (F := Ideal) (Host.dotGeneral (F := Ideal) (φ₁ := .f32) (φ₂ := .f32) dot_S12x128_S128x768_S12x768_1_0_0_1_n_n none (widthRows qs)
      (transpose S128x768 [1, 0] (widthWeight W) transposes_S768x128_S128x768_1_0))
    (broadcastInDim S12x768 ![0, 1] bcast_S1x768_S12x768_0_1 (broadcastInDim S1x768 ![1] bcast_S768_S1x768_1 b))

/-- The resident weight the region reads. -/
abbrev weightT (W : S768x896.Idx → EReal) : S768x768.Idx → EReal :=
  truncf (F := Ideal) .bf16 (transpose S768x768 [1, 0] (stateWeight W) transposes_S768x768_S768x768_1_0) bitsLt_bf16_f32

/-- The kernel's result as a term of the four arguments: the region's function of the host-written arrays, re-read as
    `[8, 1024, 12, 768]`. -/
def kernelResult (h : S8x1024x768.Idx → EReal) (qs : S128x12.Idx → EReal) (W : S768x896.Idx → EReal) (b : S768.Idx → EReal) :
    S8x1024x12x768.Idx → EReal :=
  shapeCast S8x1024x12x768
    (RegionArray.arrayFn (shapeCast S8192x768 h shapeCasts_S8x1024x768_S8192x768) (weightT W) (table qs W b))
    shapeCasts_S8192x12x768_S8x1024x12x768

/-- The flattened states at row `1024 n + l`. -/
theorem states_at (h : S8x1024x768.Idx → EReal) (n : Fin 8) (l : Fin 1024) (r : Fin 8192) (hr : r.val = n.val * 1024 + l.val) (k : Fin 768) :
    shapeCast S8192x768 h shapeCasts_S8x1024x768_S8192x768 (ix2 r k) = h (ix3 n l k) :=
  shapeCast_apply h shapeCasts_S8x1024x768_S8192x768 (ix2 r k) (ix3 n l k) (by
    rw [Shape.rowMajor_val_two, Shape.rowMajor_val_three]
    show (n.val * 1024 + l.val) * 768 + k.val = r.val * 768 + k.val
    rw [hr])

/-- The resident weight at `(k, o)`. -/
theorem weight_at (W : S768x896.Idx → EReal) (k o : Fin 768) : weightT W (ix2 k o) = stateWeight W (ix2 o k) :=
  transpose_ix2_apply (stateWeight W) transposes_S768x768_S768x768_1_0 k o

/-- The table at `(w, o)`. -/
theorem table_at (qs : S128x12.Idx → EReal) (W : S768x896.Idx → EReal) (b : S768.Idx → EReal) (w : Fin 12) (o : Fin 768) :
    table qs W b (ix2 w o) = (∑ k : Fin 128, widthRows qs (ix2 w k) * widthWeight W (ix2 o k)) + b (ix1 o) := by
  show Host.dotGeneral (F := Ideal) (φ₁ := .f32) (φ₂ := .f32) dot_S12x128_S128x768_S12x768_1_0_0_1_n_n none (widthRows qs)
      (transpose S128x768 [1, 0] (widthWeight W) transposes_S768x128_S128x768_1_0) (ix2 w o)
    + broadcastInDim S12x768 ![0, 1] bcast_S1x768_S12x768_0_1 (broadcastInDim S1x768 ![1] bcast_S768_S1x768_1 b) (ix2 w o) = _
  rw [row_to_mat_apply, vec_to_row_apply]
  simp only [Host.dotGeneral]
  rw [dotGeneral_plain_apply (A := 12) (K := 128) (B := 768) dot_S12x128_S128x768_S12x768_1_0_0_1_n_n ⟨_, rfl⟩]
  congr 1
  exact Finset.sum_congr rfl fun k _ => by rw [transpose_ix2_apply]

/-- THE KERNEL: its result term is the specification of the arguments. -/
theorem kernelResult_eq (h : S8x1024x768.Idx → EReal) (qs : S128x12.Idx → EReal) (W : S768x896.Idx → EReal) (b : S768.Idx → EReal) :
    kernelResult h qs W b = widthLinearAt h (widthRows qs) (stateWeight W) (widthWeight W) b := by
  funext i
  obtain ⟨n, l, w, o, rfl⟩ : ∃ (n : Fin 8) (l : Fin 1024) (w : Fin 12) (o : Fin 768), i = ix4 n l w o :=
    ⟨i 0, i 1, i 2, i 3, eq_ix4 i⟩
  have hr : n.val * 1024 + l.val < 8192 := by have := n.isLt; have := l.isLt; omega
  unfold kernelResult
  refine (shapeCast_apply _ shapeCasts_S8192x12x768_S8x1024x12x768 (ix4 n l w o)
    (ix3 (⟨n.val * 1024 + l.val, hr⟩ : Fin 8192) w o) ?_).trans ?_
  · rw [Shape.rowMajor_val_three, Shape.rowMajor_val_four]
    rfl
  · show max ((∑ k : Fin 768, shapeCast S8192x768 h shapeCasts_S8x1024x768_S8192x768 (ix2 (⟨n.val * 1024 + l.val, hr⟩ : Fin 8192) k)
        * weightT W (ix2 k o)) + table qs W b (ix2 w o)) (Ideal.ofBits .f32 0x00000000#32)
      = max ((∑ d : Fin 768, h (ix3 n l d) * stateWeight W (ix2 o d))
          + ((∑ k : Fin 128, widthRows qs (ix2 w k) * widthWeight W (ix2 o k)) + b (ix1 o))) (Ideal.ofBits .f32 0x00000000#32)
    rw [table_at, Finset.sum_congr rfl fun k _ => by rw [states_at h n l _ rfl k, weight_at]]

end Cert.KernelIdeal.KernelValue

end
-- ==== Proof.KernelRun.lean ====
/-
  The kernel's run, with its result named.

  The generated frame run ends with the region's output array at what the 32 write-backs leave and every other buffer at
  what the line after the region leaves. That line re-reads the region's array `[8192, 12, 768]` as `[8, 1024, 12, 768]`; the
  array is `arrayFn` of the arrays the region found (RegionArray), which the first lines wrote from the arguments
  (HostLines). So the result buffer ends at `kernelResult` of the arguments' contents at launch, and the arguments end
  unchanged.
-/
import proofs.«142006_j39599598469527_2_alg».proof.Proof.KernelValue
import Idealize.ShloMosaic.Lib.StableHlo.Run

noncomputable section

namespace Cert.KernelIdeal.KernelRun

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-- The result buffer after the line that follows the region. -/
theorem result_eq (c : Dev nD) :
    (Pipeline.afterTail₀ cfgs (dats m) 0 (V0 m) [hostOps1] c main_v12 : S8x1024x12x768.Idx → EReal)
      = KernelValue.kernelResult (m ((c : Thread nD τ).loc main_arg0)) (m ((c : Thread nD τ).loc main_arg1))
          (m ((c : Thread nD τ).loc main_arg2)) (m ((c : Thread nD τ).loc main_arg3)) := by
  unfold Pipeline.afterTail₀
  show StableHlo.after hostOps1 _ (Proc.devRef .tc main_v12) = _
  after_results
  show shapeCast S8x1024x12x768
      (Pipeline.withArrays spec0 c (V0 m c) (fun w => (dats m 0 c).arrAt w cfg0.N) (Proc.devRef .tc (Pipeline.arrRef spec0 3)))
      shapeCasts_S8192x12x768_S8x1024x12x768 = _
  rw [Pipeline.withArrays_arr spec0 launch0.win.arr_inj c _ _ 3, RegionArray.final, HostLines.states_eq, HostLines.weight_eq,
    HostLines.table_eq]
  rfl

/-- THE RUN: every weakly fair execution terminates with the result at `kernelResult` of the arguments and the
    arguments unchanged. -/
theorem run : θ_run defs (onTc (τ := τ) (main (F := Ideal))) ⟨m, fun _ => 0, ρ⟩ fun r => ∀ c : Dev nD,
      r.2.mem ((c : Thread nD τ).loc main_v12)
        = KernelValue.kernelResult (m ((c : Thread nD τ).loc main_arg0)) (m ((c : Thread nD τ).loc main_arg1))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c =>
    ⟨((h c).2 main_v12 (Pipeline.mem_restRefs_of main_v12 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.KernelRun

end
-- ==== Proof.ReferenceValue.lean ====
/-
  The reference's result is `widthLinearAt` of the arguments.

  Read one operation at a time (the generated stage lemmas), the reference's element at `(n, l, w, o)` is
      max (((∑ d, h (n, l, d) * W1 (o, d)) + (∑ k, q (w, k) * W2 (o, k))) + b o) 0
  — the state term and the width term, each broadcast to the four axes, added, then the bias added, then the clamp. The
  specification groups the bias with the width term; associativity of the sum joins the two.
-/
import proofs.«142006_j39599598469527_2_alg».proof.Proof.Gen.ReferenceIdeal.Read
import proofs.«142006_j39599598469527_2_alg».proof.Proof.Spec

noncomputable section

open scoped BigOperators

namespace Cert.ReferenceIdeal.RefValue

open Cert.ReferenceIdeal Cert.ReferenceIdeal.Gen Cert.ReferenceIdeal.Read
open Idealize.ShloMosaic Idealize.ShloMosaic.ValueIdx Cert.WidthLinear

/-- The state term's left operand is read along the hidden coordinate at `(n, l)`. -/
theorem state_lhs (i : S8x1024x12x768.Idx) (k : Fin 768) :
    lidx_main_v3 (idx_main_v5 (idx_main_v7 i)) k = ix3 (i 0) (i 1) k :=
  funext fun a => Fin.ext (by match a with | ⟨0, _⟩ => rfl | ⟨1, _⟩ => rfl | ⟨2, _⟩ => rfl)
/-- Its right operand along row `o` of the weight's first part. -/
theorem state_rhs (i : S8x1024x12x768.Idx) (k : Fin 768) :
    ridx_main_v3 (idx_main_v5 (idx_main_v7 i)) k = ix2 (i 3) k :=
  funext fun a => Fin.ext (by match a with | ⟨0, _⟩ => rfl | ⟨1, _⟩ => rfl)
/-- The width term's left operand is read along embedding `w`. -/
theorem width_lhs (i : S8x1024x12x768.Idx) (k : Fin 128) :
    lidx_main_v4 (idx_main_v6 (idx_main_v8 i)) k = ix2 (i 2) k :=
  funext fun a => Fin.ext (by match a with | ⟨0, _⟩ => rfl | ⟨1, _⟩ => rfl)
/-- Its right operand along row `o` of the weight's second part. -/
theorem width_rhs (i : S8x1024x12x768.Idx) (k : Fin 128) :
    ridx_main_v4 (idx_main_v6 (idx_main_v8 i)) k = ix2 (i 3) k :=
  funext fun a => Fin.ext (by match a with | ⟨0, _⟩ => rfl | ⟨1, _⟩ => rfl)
/-- The bias is read at `o`. -/
theorem bias_idx (i : S8x1024x12x768.Idx) : idx_main_v10 (idx_main_v11 i) = ix1 (i 3) :=
  funext fun a => Fin.ext (by match a with | ⟨0, _⟩ => rfl)

/-- THE REFERENCE: its result, stage by stage, is the specification of the arguments. -/
theorem reference_eq (h : S8x1024x768.Idx → EReal) (qs : S128x12.Idx → EReal) (W : S768x896.Idx → EReal) (b : S768.Idx → EReal) :
    val_main_v13 (F := Ideal) h qs W b
      = widthLinearAt h (val_main_v0 (F := Ideal) qs) (val_main_v1 (F := Ideal) W) (val_main_v2 (F := Ideal) W) b := by
  funext i
  rw [val_main_v13_apply, val_main_v12_apply, val_main_v9_apply, val_main_v7_apply, val_main_v5_apply, val_main_v3_apply,
    val_main_v8_apply, val_main_v6_apply, val_main_v4_apply, val_main_v11_apply, val_main_v10_apply,
    val_main_call0_v0_apply, val_main_call0_cst_apply]
  simp only [state_lhs, state_rhs, width_lhs, width_rhs, bias_idx, Ideal.addf_def, Ideal.maximumf_def, Ideal.ofBits_def]
  unfold widthLinearAt widthLinear
  exact regroup _ _ _ _

end Cert.ReferenceIdeal.RefValue

end
-- ==== Proof.lean ====
/-
  A linear layer applied to every position's hidden state joined with each of twelve width embeddings, clamped below at
  zero: the fused kernel against its reference, over the extended reals.

  Both programs compute, at batch `n`, position `l`, width `w`, output `o`,
      max ((∑ d, h (n, l, d) * W (o, d)) + (∑ k, q (w, k) * W (o, 768 + k)) + b o) 0 ,
  with `q` the width parameter `[128, 12]` re-read as `[12, 128]`. The reference forms the two matrix terms, broadcasts and
  adds them, then adds the bias. The kernel folds the bias into the width term on the host (a `[12, 768]` table), and a
  pipelined region of 32 grid points computes, for 256 positions at a time, the state term once and then the twelve width
  slots (RowBlock: one block; RegionArray: the 32 blocks are one array function; HostLines: the arrays the region reads;
  KernelValue: the result read at an index; KernelRun: the run). The two differ only in how the sum of three terms is
  grouped, and addition on the extended reals is associative (Spec), so the precondition is never opened.

  The three frames are the generated ones (the reference's is its generated run with the result dropped); the kernel's
  idealization rewrote nothing, so `preserves` is trivial.
-/
import proofs.«142006_j39599598469527_2_alg».proof.Defs
import proofs.«142006_j39599598469527_2_alg».proof.Proof.Gen.Kernel
import proofs.«142006_j39599598469527_2_alg».proof.Proof.Gen.Kernel.Skeleton
import proofs.«142006_j39599598469527_2_alg».proof.Proof.Gen.Kernel.Launch
import proofs.«142006_j39599598469527_2_alg».proof.Proof.Gen.Kernel.Points
import proofs.«142006_j39599598469527_2_alg».proof.Proof.Gen.Kernel.Frame
import proofs.«142006_j39599598469527_2_alg».proof.Proof.Gen.KernelIdeal
import proofs.«142006_j39599598469527_2_alg».proof.Proof.Gen.KernelIdeal.Skeleton
import proofs.«142006_j39599598469527_2_alg».proof.Proof.Gen.KernelIdeal.Launch
import proofs.«142006_j39599598469527_2_alg».proof.Proof.Gen.KernelIdeal.Points
import proofs.«142006_j39599598469527_2_alg».proof.Proof.Gen.KernelIdeal.Frame
import proofs.«142006_j39599598469527_2_alg».proof.Proof.Gen.ReferenceIdeal
import proofs.«142006_j39599598469527_2_alg».proof.Proof.Gen.Pre_finite_inputs
import proofs.«142006_j39599598469527_2_alg».proof.Proof.Gen.ReferenceIdeal.Run
import proofs.«142006_j39599598469527_2_alg».proof.Proof.Gen.ReferenceIdeal.Read
import proofs.«142006_j39599598469527_2_alg».proof.Proof.KernelRun
import proofs.«142006_j39599598469527_2_alg».proof.Proof.ReferenceValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Run from memories that agree on the four arguments, both programs end with the specification of those arguments in
    their result: the kernel by its run and `kernelResult_eq`, the reference by its generated run and `reference_eq`. -/
theorem algebraic : Cert.algebraic_KernelIdeal_ReferenceIdeal := by
  intro m ρ m' ρ' _ hagree
  refine ⟨fun c => Cert.WidthLinear.widthLinearAt (m ((c : Thread Cert.KernelIdeal.nD Cert.KernelIdeal.τ).loc Cert.KernelIdeal.main_arg0))
      (Cert.KernelIdeal.HostLines.widthRows (m ((c : Thread Cert.KernelIdeal.nD Cert.KernelIdeal.τ).loc Cert.KernelIdeal.main_arg1)))
      (Cert.KernelIdeal.HostLines.stateWeight (m ((c : Thread Cert.KernelIdeal.nD Cert.KernelIdeal.τ).loc Cert.KernelIdeal.main_arg2)))
      (Cert.KernelIdeal.HostLines.widthWeight (m ((c : Thread Cert.KernelIdeal.nD Cert.KernelIdeal.τ).loc Cert.KernelIdeal.main_arg2)))
      (m ((c : Thread Cert.KernelIdeal.nD Cert.KernelIdeal.τ).loc Cert.KernelIdeal.main_arg3)), ?_, ?_⟩
  · exact (θ_run Cert.KernelIdeal.defs _ _).mono
      (fun _ h c => ⟨(h c).1.trans (Cert.KernelIdeal.KernelValue.kernelResult_eq _ _ _ _), (h c).2⟩)
      (Cert.KernelIdeal.KernelRun.run m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v13_eq, Cert.ReferenceIdeal.RefValue.reference_eq,
      (hagree c).1, (hagree c).2.1, (hagree c).2.2.1, (hagree c).2.2.2]
    rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
